-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S_ : Shape := ⟨0, ![]⟩
abbrev S1x1 : Shape := ⟨2, ![1, 1]⟩
abbrev S1x4096 : Shape := ⟨2, ![1, 4096]⟩
abbrev S512x4096 : Shape := ⟨2, ![512, 4096]⟩
abbrev S256x4096 : Shape := ⟨2, ![256, 4096]⟩
abbrev S1x256 : Shape := ⟨2, ![1, 256]⟩
abbrev S512x256 : Shape := ⟨2, ![512, 256]⟩

abbrev nBuf : Space → Nat
  | .hbm => 19
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x1, .f32⟩
  | .hbm, ⟨16, _⟩ => ⟨S1x4096, .f32⟩
  | .hbm, ⟨17, _⟩ => ⟨S8192x4096, .f32⟩
  | .hbm, ⟨18, _⟩ => ⟨S4x2048x4096, .f32⟩
  | .local _ .vmem, ⟨0, _⟩ => ⟨S1x1, .f32⟩
  | .local _ .vmem, ⟨1, _⟩ => ⟨S512x4096, .f32⟩
  | .local _ .vmem, ⟨2, _⟩ => ⟨S512x4096, .f32⟩
  | .local _ .vmem, ⟨3, _⟩ => ⟨S256x4096, .f32⟩
  | .local _ .vmem, ⟨4, _⟩ => ⟨S256x4096, .f32⟩
  | .local _ .vmem, ⟨5, _⟩ => ⟨S1x256, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  reducesTo_S8192x4096_S_d0_1 : S8192x4096.ReducesTo [0, 1] S_
  h_S_ : 0 < S_.numel
  reducesTo_S4096x4096_S_d0_1 : S4096x4096.ReducesTo [0, 1] S_
  shapeCasts_S_S1x1 : S_.ShapeCasts S1x1
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x4096_S4x2048x4096 : S8192x4096.ShapeCasts S4x2048x4096
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x4096.size a
  hwx0_4 : ∀ i : grid0.Coords, EltTy.bits .f32 = 32 ∨ (Rect.block (s := S8192x4096) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v8) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S1x1x4096 : Shape := ⟨3, ![1, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4x2048x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x2048x4096, .f32⟩
  | .hbm, ⟨15, _⟩ => ⟨S4x2048x4096, .i1⟩
  | .hbm, ⟨16, _⟩ => ⟨S_, .f32⟩
  | .hbm, ⟨17, _⟩ => ⟨S_, .f32⟩
  | .hbm, ⟨18, _⟩ => ⟨S4x2048x4096, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S_, .f32⟩
  | .hbm, ⟨23, _⟩ => ⟨S4096x4096, .f32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4x2048x4096, .f32⟩
  | .hbm, ⟨33, _⟩ => ⟨S4x2048x4096, .f32⟩
  | .hbm, ⟨34, _⟩ => ⟨S4x2048x4096, .f32⟩
  | .hbm, ⟨35, _⟩ => ⟨S1x1x4096, .f32⟩
  | .hbm, ⟨36, _⟩ => ⟨S4x2048x4096, .f32⟩
  | .hbm, ⟨37, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_cst_4 : Ref sig .tc := ⟨.hbm, 16, rfl⟩
abbrev main_cst_5 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_cst_6 : Ref sig .tc := ⟨.hbm, 22, rfl⟩
abbrev main_v10 : Ref sig .tc := ⟨.hbm, 23, rfl⟩
abbrev main_v11 : Ref sig .tc := ⟨.hbm, 24, rfl⟩
abbrev main_cst_7 : Ref sig .tc := ⟨.hbm, 25, rfl⟩
abbrev main_cst_8 : Ref sig .tc := ⟨.hbm, 26, rfl⟩
abbrev main_call1_v0 : Ref sig .tc := ⟨.hbm, 27, rfl⟩
abbrev main_call1_v1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]

class Facts₀ : Prop where
  reducesTo_S4x2048x4096_S_d0_1_2 : S4x2048x4096.ReducesTo [0, 1, 2] S_
  h_S_ : 0 < S_.numel
  reducesTo_S4096x4096_S_d0_1 : S4096x4096.ReducesTo [0, 1] S_
  bcast_S_S4x2048x4096 : S_.BroadcastsInDim S4x2048x4096 (![] : Fin 0 → Fin S4x2048x4096.rank)
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.SignLayer.lean ====
/-
  The sign-binarised linear layer as one function of its three argument arrays, over the extended reals.

  For x : [4, 2048, 4096], w : [4096, 4096] and b : [4096], with σ(v) = 1 where v ≥ 0 and −1 elsewhere, and the two
  per-tensor scales  α_x = (Σ |x|) / 2^25  and  α_w = (Σ |w|) / 2^24  taken over every entry,

      layer x w b (p, s, n) = (α_x · α_w) · Σ_{k < 4096} σ(x(p, s, k)) · σ(w(n, k)) + b(n).

  The comparison, the absolute value, the quotient and the float literals are kept as the words both programs use,
  so the same word on the two sides is never evaluated: only the product and the sum are read as the extended reals'.

  Also here, the one law about sums this layer needs: an array re-laid in another shape lists the same entries, so a
  sum over the re-laid array is the sum over the array (a sum in a commutative monoid does not depend on the order).
-/
import Idealize.ShloMosaic.PureOps.Ideal
import Idealize.ShloMosaic.Lib.ValueIdx

noncomputable section

open scoped BigOperators

namespace Cert.SignLayer

open Idealize.ShloMosaic Idealize.ShloMosaic.ValueIdx

/-- σ: 1 where the entry is at least zero, −1 elsewhere. -/
def sgn (v : EReal) : EReal :=
  Scalar.select (FloatOps.cmpf (F := Ideal) (φ := .f32) .oge v (FloatOps.ofBits (F := Ideal) .f32 0x00000000#32))
    (FloatOps.ofBits (F := Ideal) .f32 0x3F800000#32) (FloatOps.ofBits (F := Ideal) .f32 0xBF800000#32)

/-- The sum of the absolute values of every entry of an array, from the zero word. -/
def absSum {s : Shape} (x : s.Idx → EReal) : EReal :=
  FloatOps.ofBits (F := Ideal) .f32 0x00000000#32 + ∑ j : s.Idx, FloatOps.hostAbsf (F := Ideal) (φ := .f32) (x j)

/-- α_x · α_w: the mean absolute value of x (2^25 entries) times that of w (2^24 entries). -/
def scale (x : (⟨3, ![4, 2048, 4096]⟩ : Shape).Idx → EReal) (w : (⟨2, ![4096, 4096]⟩ : Shape).Idx → EReal) : EReal :=
  FloatOps.hostDivf (F := Ideal) (φ := .f32) (absSum x) (FloatOps.ofBits (F := Ideal) .f32 0x4C000000#32)
    * FloatOps.hostDivf (F := Ideal) (φ := .f32) (absSum w) (FloatOps.ofBits (F := Ideal) .f32 0x4B800000#32)

/-- Σ_k σ(x(p, s, k)) · σ(w(n, k)): row (p, s) of the signs of x against row n of the signs of w. -/
def signDot (x : (⟨3, ![4, 2048, 4096]⟩ : Shape).Idx → EReal) (w : (⟨2, ![4096, 4096]⟩ : Shape).Idx → EReal)
    (p : Fin 4) (s : Fin 2048) (n : Fin 4096) : EReal :=
  ∑ k : Fin 4096, sgn (x (ix3 p s k)) * sgn (w (ix2 n k))

/-- The layer's output at (p, s, n). -/
def layer (x : (⟨3, ![4, 2048, 4096]⟩ : Shape).Idx → EReal) (w : (⟨2, ![4096, 4096]⟩ : Shape).Idx → EReal)
    (b : (⟨1, ![4096]⟩ : Shape).Idx → EReal) : (⟨3, ![4, 2048, 4096]⟩ : Shape).Idx → EReal :=
  fun i => scale x w * signDot x w (i 0) (i 1) (i 2) + b (ix1 (i 2))

/-- A sum over an array re-laid in another shape is the sum over the array: the two shapes index the same entries,
    matched by their row-major positions. -/
theorem sum_relaid {α M : Type} [AddCommMonoid M] {s t : Shape} (f : α → M) (x : s.Idx → α) (h : s.ShapeCasts t) :
    ∑ j : t.Idx, f (shapeCast t x h j) = ∑ i : s.Idx, f (x i) :=
  Equiv.sum_comp (Shape.reshapeEquiv h) (fun i => f (x i))

/-- So the sum of absolute values does not see a re-laying. -/
theorem absSum_relaid {s t : Shape} (x : s.Idx → EReal) (h : s.ShapeCasts t) : absSum (shapeCast t x h) = absSum x := by
  unfold absSum
  rw [sum_relaid (fun v => FloatOps.hostAbsf (F := Ideal) (φ := .f32) v) x h]

end Cert.SignLayer

end
-- ==== Proof.ReferenceLayer.lean ====
/-
  The reference computes the layer.

  Read one operation at a time, the reference's result at (p, s, n) is
      (mean|x| · mean|w|) · Σ_k sel(x(p,s,k) ≥ 0, 1, −1) · sel(w(n,k) ≥ 0, 1, −1) + b(n):
  the two means are whole-array sums of absolute values over their entry counts, the contraction pairs x's last axis
  with w's last axis, and the bias vector is placed along the last axis and repeated over the first two. That is
  `SignLayer.layer` word for word, once the contraction's two index functions and the bias's are written by coordinates.
-/
import proofs.«148123_j66151086293456_1_alg».proof.Proof.Gen.ReferenceIdeal.Read
import proofs.«148123_j66151086293456_1_alg».proof.Proof.SignLayer

noncomputable section

open scoped BigOperators

namespace Cert.ReferenceIdeal.Layer

open Cert.ReferenceIdeal Cert.ReferenceIdeal.Read Idealize.ShloMosaic Idealize.ShloMosaic.ValueIdx Cert.SignLayer

/-- The contraction reads x at (p, s, k) … -/
theorem lhs_index (i : S4x2048x4096.Idx) (k : Fin 4096) : lidx_main_v15 i k = ix3 (i 0) (i 1) k :=
  funext fun a => Fin.ext (by match a with | ⟨0, _⟩ => rfl | ⟨1, _⟩ => rfl | ⟨2, _⟩ => rfl)

/-- … and w at (n, k). -/
theorem rhs_index (i : S4x2048x4096.Idx) (k : Fin 4096) : ridx_main_v15 i k = ix2 (i 2) k :=
  funext fun a => Fin.ext (by match a with | ⟨0, _⟩ => rfl | ⟨1, _⟩ => rfl)

/-- The bias, placed along the last axis and repeated, is read at n. -/
theorem bias_index (i : S4x2048x4096.Idx) : idx_main_v18 (idx_main_v19 i) = ix1 (i 2) :=
  funext fun a => Fin.ext (by match a with | ⟨0, _⟩ => rfl)

/-- The binarised x is σ of x, entry by entry. -/
theorem signs_x (x : (⟨S4x2048x4096, .f32⟩ : BufTy).Contents (Elt Ideal)) (y : S4x2048x4096.Idx) :
    val_main_v9 (F := Ideal) x y = sgn (x y) := by
  rw [val_main_v9_apply, val_main_v8_apply, val_main_v7_apply, val_main_v6_apply, val_main_call0_v0_apply,
    val_main_call0_v1_apply]
  rfl

/-- The binarised w is σ of w, entry by entry. -/
theorem signs_w (w : (⟨S4096x4096, .f32⟩ : BufTy).Contents (Elt Ideal)) (y : S4096x4096.Idx) :
    val_main_v13 (F := Ideal) w y = sgn (w y) := by
  rw [val_main_v13_apply, val_main_v12_apply, val_main_v11_apply, val_main_v10_apply, val_main_call1_v0_apply,
    val_main_call1_v1_apply]
  rfl

/-- The mean absolute value of x: the sum of its absolute values over 2^25. -/
theorem mean_x (x : (⟨S4x2048x4096, .f32⟩ : BufTy).Contents (Elt Ideal)) (j : S_.Idx) :
    val_main_v2 (F := Ideal) x j
      = FloatOps.hostDivf (F := Ideal) (φ := .f32) (absSum x) (FloatOps.ofBits (F := Ideal) .f32 0x4C000000#32) := by
  rw [val_main_v2_apply, val_main_v1_apply]
  rfl

/-- The mean absolute value of w: the sum of its absolute values over 2^24. -/
theorem mean_w (w : (⟨S4096x4096, .f32⟩ : BufTy).Contents (Elt Ideal)) (j : S_.Idx) :
    val_main_v5 (F := Ideal) w j
      = FloatOps.hostDivf (F := Ideal) (φ := .f32) (absSum w) (FloatOps.ofBits (F := Ideal) .f32 0x4B800000#32) := by
  rw [val_main_v5_apply, val_main_v4_apply]
  rfl

/-- THE REFERENCE'S RESULT is the layer of its three arguments. -/
theorem result_is_layer (x : (⟨S4x2048x4096, .f32⟩ : BufTy).Contents (Elt Ideal))
    (w : (⟨S4096x4096, .f32⟩ : BufTy).Contents (Elt Ideal)) (b : (⟨S4096, .f32⟩ : BufTy).Contents (Elt Ideal)) :
    val_main_v20 (F := Ideal) x w b = layer x w b := by
  funext i
  rw [val_main_v20_apply, val_main_v17_apply, val_main_v16_apply, val_main_v14_apply, mean_x, mean_w,
    val_main_v15_apply, val_main_v19_apply, val_main_v18_apply, bias_index]
  simp only [signs_x, signs_w, lhs_index, rhs_index]
  rfl

end Cert.ReferenceIdeal.Layer

end
-- ==== Proof.LibMatmulNT.lean ====
/-
  A matrix product whose right operand is contracted on its last axis, read at an index, over the extended reals.

  For the dimension numbers of an M×K by N×K product (contract the left operand's axis 1 with the right operand's
  axis 1, no batch axes: the product of the left matrix with the transpose of the right one), the product accumulated
  into the zero matrix has, at row `p` and column `q`, the entry  Σ_{k < K} lhs(p, k) · rhs(q, k):  the left index
  keeps the row and takes the contraction coordinate as its column, the right index takes the output's column as
  its row and the contraction coordinate as its column. Generic in M, K, N and in the operands' formats.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : Nat}

/-- The left index keeps the output's row. -/
theorem nt_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton_self _)]
  rfl

/-- The left index's column is the contraction coordinate. -/
theorem nt_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right index's row is the output's column. -/
theorem nt_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton_self _)]
  rfl

/-- The right index's column is the contraction coordinate. -/
theorem nt_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- THE PRODUCT AT AN ENTRY: a matrix product contracting both operands' last axes, accumulated into the zero matrix,
    is at `(p, q)` the sum over the contracted axis of the operands' products. The dimension numbers are passed as any
    record equal to `DotDims.transposedRhs M K N` (a printed record with the same six lists is, by `rfl`). -/
theorem matmul_nt_zero_apply {φ₁ φ₂ : FTy} (D : DotDims ⟨2, ![M, K]⟩ ⟨2, ![N, K]⟩ ⟨2, ![M, N]⟩)
    (hD : D = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  subst hD
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact nt_lhs_row _ _
      | ⟨1, _⟩ => exact (nt_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact nt_rhs_row _ _
      | ⟨1, _⟩ => exact (nt_rhs_col _ _).trans hk)
  rw [el, er]

end Cert.LibMatmulNT

end
-- ==== Proof.BlockProduct.lean ====
/-
  One grid point's output block, entry by entry.

  The body loads a 512-row block of the flattened x, a 256-row block of w, the 1×1 scale and a 1×256 piece of the bias
  row, replaces the two matrix blocks by their signs σ (a select on "≥ 0" between the words 1 and −1, then a change of
  float format, which is the identity on extended reals), multiplies the sign blocks contracting both last axes into a
  zero accumulator, scales the product by the scale's one entry and adds the bias piece to every row. So entry (p, q) of
  the stored block is
      (Σ_{k < 4096} σ(xb(p, k)) · σ(wb(q, k))) · sb(0, 0) + bb(0, q).
-/
import proofs.«148123_j66151086293456_1_alg».proof.Proof.Gen.KernelIdeal.Skeleton
import proofs.«148123_j66151086293456_1_alg».proof.Proof.SignLayer
import proofs.«148123_j66151086293456_1_alg».proof.Proof.LibMatmulNT
import Idealize.ShloMosaic.Lib.Pipeline.Value
import Idealize.ShloMosaic.Lib.ValueLayout

noncomputable section

open scoped BigOperators

namespace Cert.KernelIdeal.Block

open Cert.KernelIdeal Cert.KernelIdeal.Gen Idealize.ShloMosaic Idealize.ShloMosaic.ValueIdx Cert.SignLayer

/-- The binarised block: a select on "entry ≥ 0" between the words 1 and −1, narrowed to the product's input format, is σ
    of the entry. -/
theorem signs_apply {S : Shape} (v : FVec Ideal S .f32) (hb : FTy.bf16.bits < FTy.f32.bits) (y : S.Idx) :
    (truncf .bf16 (select (cmpf .oge v (broadcast S (Scalar.ofBits (F := Ideal) .f32 0x00000000#32)))
        (broadcast S (Scalar.ofBits (F := Ideal) .f32 0x3F800000#32))
        (broadcast S (Scalar.ofBits (F := Ideal) .f32 0xBF800000#32))) hb : FVec Ideal S .bf16) y = sgn (v y) := rfl

/-- The scale's one entry, extracted at position (0, 0). -/
theorem scale_entry (sb : Vec Ideal S1x1 .f32) (h : ∀ a, (![0, 0] : Fin 2 → Nat) a < S1x1.size a) :
    extractAt ![0, 0] sb h = sb (ix2 (0 : Fin 1) (0 : Fin 1)) :=
  congrArg sb (funext fun a => Fin.ext (by match a with | ⟨0, _⟩ => rfl | ⟨1, _⟩ => rfl))

/-- THE STORED BLOCK AT (p, q). -/
theorem body_entry (xb : Vec Ideal S512x4096 .f32) (wb : Vec Ideal S256x4096 .f32) (sb : Vec Ideal S1x1 .f32)
    (bb : Vec Ideal S1x256 .f32) (p : Fin 512) (q : Fin 256) :
    k0_pay1 (F := Ideal) xb wb sb bb (ix2 p q)
      = (∑ k : Fin 4096, sgn (xb (ix2 p k)) * sgn (wb (ix2 q k))) * sb (ix2 (0 : Fin 1) (0 : Fin 1))
        + bb (ix2 (0 : Fin 1) q) := by
  unfold k0_pay1
  refine congrArg₂ (· + ·) (congrArg₂ (· * ·) ?_ ?_) ?_
  · refine (Cert.LibMatmulNT.matmul_nt_zero_apply dot_S512x4096_S256x4096_S512x256_1_1_0_0_n_n rfl none _ _ p q).trans ?_
    refine Finset.sum_congr rfl fun k _ => congrArg₂ (· * ·) ?_ ?_
    · refine (signs_apply _ _ (ix2 p k)).trans ?_
      exact congrArg sgn (congrFun (shapeCast_self xb _) (ix2 p k))
    · exact signs_apply wb _ (ix2 q k)
  · exact scale_entry sb _
  · refine (broadcastTo_1b_ab_apply _ _ p q).trans ?_
    exact congrFun (shapeCast_self bb _) (ix2 (0 : Fin 1) q)

end Cert.KernelIdeal.Block

end
-- ==== Proof.OutputMatrix.lean ====
/-
  From the grid's blocks to the call's output matrix.

  The grid is 16 × 16. Point (i, j) reads rows 512·i … 512·i + 511 of the flattened x (all 4096 columns), rows
  256·j … 256·j + 255 of w, the one scale cell, and columns 256·j … of the bias row, and writes the 512 × 256 block at
  (512·i, 256·j) of the output matrix [8192, 4096]. Entry (r, n) of that matrix therefore depends on row r of the
  flattened x and row n of w only:
      out(r, n) = (Σ_{k < 4096} σ(x2(r, k)) · σ(w(n, k))) · sc(0, 0) + br(0, n),
  one function of the four operand arrays whose block at each point is what that point stores. The 256 blocks tile the
  matrix (the point covering (r, n) is (r / 512, n / 256)), so after the call the matrix holds that function everywhere.
-/
import proofs.«148123_j66151086293456_1_alg».proof.Proof.Gen.KernelIdeal.Frame
import proofs.«148123_j66151086293456_1_alg».proof.Proof.BlockProduct
import Idealize.ShloMosaic.Lib.Pipeline.Value

set_option maxRecDepth 16384

noncomputable section

open scoped BigOperators

namespace Cert.KernelIdeal.Matrix

open Cert.KernelIdeal Cert.KernelIdeal.Gen Idealize.ShloMosaic Idealize.ShloMosaic.TcCoe Idealize.SL.Sem
open Idealize.ShloMosaic.ValueIdx Cert.SignLayer Cert.KernelIdeal.Block

/-- The output matrix as one function of the scale cell, the flattened x, w and the bias row. -/
def matrixOut (sc : S1x1.Idx → EReal) (x2 : S8192x4096.Idx → EReal) (w : S4096x4096.Idx → EReal)
    (br : S1x4096.Idx → EReal) : S8192x4096.Idx → EReal :=
  fun j => (∑ k : Fin 4096, sgn (x2 (ix2 (j 0) k)) * sgn (w (ix2 (j 1) k))) * sc (ix2 (0 : Fin 1) (0 : Fin 1))
    + br (ix2 (0 : Fin 1) (j 1))

/-- A stored block's entry (p, q) is the matrix function at the array index j, once the loaded blocks' entries it uses
    are the arrays' entries `matrixOut` uses at j. -/
theorem block_entry_of_reads (sc : S1x1.Idx → EReal) (x2 : S8192x4096.Idx → EReal) (w : S4096x4096.Idx → EReal)
    (br : S1x4096.Idx → EReal) (sb : Vec Ideal S1x1 .f32) (xb : Vec Ideal S512x4096 .f32) (wb : Vec Ideal S256x4096 .f32)
    (bb : Vec Ideal S1x256 .f32) (j : S8192x4096.Idx) (p : Fin 512) (q : Fin 256)
    (hs : sb (ix2 (0 : Fin 1) (0 : Fin 1)) = sc (ix2 (0 : Fin 1) (0 : Fin 1)))
    (hx : ∀ k : Fin 4096, xb (ix2 p k) = x2 (ix2 (j 0) k))
    (hw : ∀ k : Fin 4096, wb (ix2 q k) = w (ix2 (j 1) k))
    (hb : bb (ix2 (0 : Fin 1) q) = br (ix2 (0 : Fin 1) (j 1))) :
    k0_pay1 (F := Ideal) xb wb sb bb (ix2 p q) = matrixOut sc x2 w br j := by
  rw [body_entry, hs, hb]
  unfold matrixOut
  refine congrArg₂ (· + ·) (congrArg₂ (· * ·) (Finset.sum_congr rfl fun k _ => ?_) rfl) rfl
  rw [hx k, hw k]

theorem zero_offsets : (![0, 0] : Fin 2 → Nat) = fun _ => 0 := funext fun a => by fin_cases a <;> rfl

/-- The printed index maps over the grid: the scale is always block (0, 0); x's row block is the output's row block and
    it has one column block; w's row block is the output's column block; the bias row's column block is the output's;
    and the output's block numbers run to 15 on both axes. -/
theorem index_facts : ∀ t : Fin cfg0.N,
      win0_0.index t (0 : Fin 2) = 0 ∧ win0_0.index t (1 : Fin 2) = 0
    ∧ win0_1.index t (0 : Fin 2) = win0_4.index t (0 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 15 ∧ win0_4.index t (1 : Fin 2) ≤ 15 :=
  (by decide +kernel : ∀ t : Fin grid0.N, _)

/-- Every block of the output matrix is some point's. -/
theorem index_onto : ∀ (q0 : Fin 16) (q1 : Fin 16), ∃ t : Fin cfg0.N, win0_4.index t = ![q0.val, q1.val] :=
  (by decide +kernel : ∀ (q0 : Fin 16) (q1 : Fin 16), ∃ t : Fin grid0.N, win0_4.index t = ![q0.val, q1.val])

variable (m : (ℓ : Loc nD τ sig) → Buf (Elt Ideal) ℓ)

/-- WHAT POINT t WRITES BACK is block t of the matrix function of the operand arrays as the call finds them. -/
theorem flushed_eq (c : Dev nD) (t : Fin cfg0.N) :
    (dats m 0 c).flushed 4 t = ((cfg0.win 4).blk t).view.read (Elt Ideal)
      (matrixOut (V m c main_v8) (V m c main_v0) (V m c main_arg1) (V m c main_v9)) := by
  show (cfg0.win 4).cut (grid0.coords t) ((dats m 0 c).after 4 t) = _
  rw [after0_4]
  unfold out0_4
  rw [View.canon_unit_zero zero_offsets]
  simp only [View.ld_unit_zero (S := S512x4096) zero_offsets, View.ld_unit_zero (S := S256x4096) zero_offsets,
    View.ld_unit_zero (S := S1x1) zero_offsets, View.ld_unit_zero (S := S1x256) zero_offsets]
  obtain ⟨e00, e01, e10, e11, e20, e21, e30, e31, -, -⟩ := index_facts t
  funext y
  obtain ⟨p, q, rfl⟩ : ∃ (p : Fin 512) (q : Fin 256), y = ix2 p q := ⟨y 0, y 1, eq_ix2 y⟩
  refine block_entry_of_reads _ _ _ _ _ _ _ _ (((cfg0.win 4).blk t).view.emb (ix2 p q)) p q ?_ ?_ ?_ ?_
  · show V m c main_v8 (((cfg0.win 0).blk t).view.emb (ix2 (0 : Fin 1) (0 : Fin 1))) = V m c main_v8 (ix2 (0 : Fin 1) (0 : Fin 1))
    refine congrArg (V m c main_v8) (funext fun a => Fin.ext ?_)
    match a with
    | ⟨0, _⟩ => show win0_0.index t (0 : Fin 2) * 1 + 1 * 0 = 0; omega
    | ⟨1, _⟩ => show win0_0.index t (1 : Fin 2) * 1 + 1 * 0 = 0; omega
  · intro k
    show V m c main_v0 (((cfg0.win 1).blk t).view.emb (ix2 p k))
      = V m c main_v0 (ix2 ((((cfg0.win 4).blk t).view.emb (ix2 p q)) 0) k)
    refine congrArg (V m c main_v0) (funext fun a => Fin.ext ?_)
    match a with
    | ⟨0, _⟩ => show win0_1.index t (0 : Fin 2) * 512 + 1 * p.val = win0_4.index t (0 : Fin 2) * 512 + 1 * p.val; omega
    | ⟨1, _⟩ => show win0_1.index t (1 : Fin 2) * 4096 + 1 * k.val = k.val; omega
  · intro k
    show V m c main_arg1 (((cfg0.win 2).blk t).view.emb (ix2 q k))
      = V m c main_arg1 (ix2 ((((cfg0.win 4).blk t).view.emb (ix2 p q)) 1) k)
    refine congrArg (V m c main_arg1) (funext fun a => Fin.ext ?_)
    match a with
    | ⟨0, _⟩ => show win0_2.index t (0 : Fin 2) * 256 + 1 * q.val = win0_4.index t (1 : Fin 2) * 256 + 1 * q.val; omega
    | ⟨1, _⟩ => show win0_2.index t (1 : Fin 2) * 4096 + 1 * k.val = k.val; omega
  · show V m c main_v9 (((cfg0.win 3).blk t).view.emb (ix2 (0 : Fin 1) q))
      = V m c main_v9 (ix2 (0 : Fin 1) ((((cfg0.win 4).blk t).view.emb (ix2 p q)) 1))
    refine congrArg (V m c main_v9) (funext fun a => Fin.ext ?_)
    match a with
    | ⟨0, _⟩ => show win0_3.index t (0 : Fin 2) * 1 + 1 * 0 = 0; omega
    | ⟨1, _⟩ => show win0_3.index t (1 : Fin 2) * 256 + 1 * q.val = win0_4.index t (1 : Fin 2) * 256 + 1 * q.val; omega

/-- An index of the matrix is in point t's block iff each coordinate is in the block's range on its axis. -/
theorem mem_block (t : Fin cfg0.N) (i : S8192x4096.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v10).slice (win0_4.rect t)).set ↔ _
  rw [View.set_slice_whole, Rect.mem_set_unit]
  exact Iff.rfl

/-- The blocks tile the matrix: (r, n) lies in the block of the point whose block numbers are (r / 512, n / 256). -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := index_onto ⟨(i 0).val / 512, by omega⟩ ⟨(i 1).val / 256, by omega⟩
  have q0 : win0_4.index t (0 : Fin 2) = (i 0).val / 512 := congrFun ht 0
  have q1 : win0_4.index t (1 : Fin 2) = (i 1).val / 256 := congrFun ht 1
  refine ⟨t, flush0_4 t, ?_⟩
  rw [mem_block]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 256 ≤ (i 1).val ∧ (i 1).val < win0_4.index t (1 : Fin 2) * 256 + 256
    omega

/-- THE OUTPUT MATRIX after the call is the matrix function of the operand arrays as the call finds them. -/
theorem final (c : Dev nD) :
    (dats m 0 c).arrAt 4 cfg0.N = matrixOut (V m c main_v8) (V m c main_v0) (V m c main_arg1) (V m c main_v9) :=
  (dats m 0 c).arrAt_eq_of_cover 4 _ (fun t _ => flushed_eq m c t) covered

end Cert.KernelIdeal.Matrix

end
-- ==== Proof.EntryArrays.lean ====
/-
  What the call finds in its operand arrays.

  Before the call the host lines re-lay x as the matrix [8192, 4096] (row p·2048 + s is x's row (p, s)), take the
  mean absolute values of that matrix and of w — each the sum of every entry's absolute value over the entry count —,
  multiply the two means into one cell [1, 1], and re-lay the bias vector as the row [1, 4096]. w itself is passed as
  it is. The mean of the re-laid x is the mean of x: the matrix lists the same 2^25 entries, and a sum does not depend on
  their order. So the cell holds `SignLayer.scale x w`.
-/
import proofs.«148123_j66151086293456_1_alg».proof.Proof.Gen.KernelIdeal.Frame
import proofs.«148123_j66151086293456_1_alg».proof.Proof.SignLayer
import Idealize.ShloMosaic.Lib.StableHlo.Run
import Idealize.ShloMosaic.PureOps.Ideal.Laws

noncomputable section

open scoped BigOperators

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.SignLayer

/-- A host sum over every axis of the absolute values of an array, from the zero word, is `absSum` of the array. -/
theorem total_abs {s : Shape} {axes : List (Fin s.rank)} (y : FVec Ideal s .f32) (h : s.ReducesTo axes S_)
    (hu : 0 < S_.numel) (i : S_.Idx) :
    Host.reduceAdd (F := Ideal) (Host.absf y) (constant (F := Ideal) S_ .f32 0x00000000#32) h hu i = absSum y := by
  simp only [Host.reduceAdd, Ideal.hostReduceAdd_def]
  exact (Ideal.hostReduceAdd_total h (fun b => b.elim0) _ _ i).trans rfl

/-- THE SCALE CELL's entry: the product of the two means, the first taken over the re-laid x, is α_x · α_w. -/
theorem scale_value (x : FVec Ideal S4x2048x4096 .f32) (w : FVec Ideal S4096x4096 .f32) (j : S1x1.Idx) :
    shapeCast S1x1 (mulf
        (Host.divf (Host.reduceAdd (Host.absf (shapeCast S8192x4096 x shapeCasts_S4x2048x4096_S8192x4096))
          (constant (F := Ideal) S_ .f32 0x00000000#32) reducesTo_S8192x4096_S_d0_1 h_S_) (constant (F := Ideal) S_ .f32 0x4C000000#32))
        (Host.divf (Host.reduceAdd (Host.absf w)
          (constant (F := Ideal) S_ .f32 0x00000000#32) reducesTo_S4096x4096_S_d0_1 h_S_) (constant (F := Ideal) S_ .f32 0x4B800000#32)))
      shapeCasts_S_S1x1 j = scale x w := by
  change FloatOps.mulf (F := Ideal) (φ := .f32)
      (FloatOps.hostDivf (F := Ideal) (φ := .f32) (Host.reduceAdd (F := Ideal) _ _ reducesTo_S8192x4096_S_d0_1 h_S_ _) _)
      (FloatOps.hostDivf (F := Ideal) (φ := .f32) (Host.reduceAdd (F := Ideal) _ _ reducesTo_S4096x4096_S_d0_1 h_S_ _) _) = _
  rw [total_abs, total_abs, absSum_relaid]
  rfl

variable (m : (ℓ : Loc nD τ sig) → Buf (Elt Ideal) ℓ)

/-- The first matrix operand is x re-laid as [8192, 4096]. -/
theorem flat_x (c : Dev nD) :
    (V m c main_v0 : S8192x4096.Idx → EReal)
      = shapeCast S8192x4096 (m ((c : Thread nD τ).loc main_arg0)) shapeCasts_S4x2048x4096_S8192x4096 := by
  show StableHlo.after hostOps0 (fun b => m (c, b)) (Proc.devRef .tc main_v0) = _
  after_results
  rfl

/-- The bias operand is the bias vector re-laid as the row [1, 4096]. -/
theorem bias_row (c : Dev nD) :
    (V m c main_v9 : S1x4096.Idx → EReal)
      = shapeCast S1x4096 (m ((c : Thread nD τ).loc main_arg2)) shapeCasts_S4096_S1x4096 := by
  show StableHlo.after hostOps0 (fun b => m (c, b)) (Proc.devRef .tc main_v9) = _
  after_results
  rfl

/-- The scale operand's entry is α_x · α_w of the arguments. -/
theorem scale_cell (c : Dev nD) (j : S1x1.Idx) :
    (V m c main_v8 : S1x1.Idx → EReal) j
      = scale (m ((c : Thread nD τ).loc main_arg0)) (m ((c : Thread nD τ).loc main_arg1)) := by
  have e : (V m c main_v8 : S1x1.Idx → EReal) = shapeCast S1x1 (mulf
        (Host.divf (Host.reduceAdd (Host.absf (shapeCast S8192x4096 (m ((c : Thread nD τ).loc main_arg0)) shapeCasts_S4x2048x4096_S8192x4096))
          (constant (F := Ideal) S_ .f32 0x00000000#32) reducesTo_S8192x4096_S_d0_1 h_S_) (constant (F := Ideal) S_ .f32 0x4C000000#32))
        (Host.divf (Host.reduceAdd (Host.absf (m ((c : Thread nD τ).loc main_arg1)))
          (constant (F := Ideal) S_ .f32 0x00000000#32) reducesTo_S4096x4096_S_d0_1 h_S_) (constant (F := Ideal) S_ .f32 0x4B800000#32)))
      shapeCasts_S_S1x1 := by
    show StableHlo.after hostOps0 (fun b => m (c, b)) (Proc.devRef .tc main_v8) = _
    after_results
    rfl
  rw [e]
  exact scale_value _ _ j

end Cert.KernelIdeal.Entry

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.KernelLayer.lean ====
/-
  The kernel program computes the layer.

  After the call one host line re-lays the output matrix [8192, 4096] as [4, 2048, 4096]: entry (p, s, n) of the result
  is the matrix's entry (p·2048 + s, n). Row p·2048 + s of the flattened x is x's row (p, s), entry (0, n) of the bias
  row is b(n), and the scale cell holds α_x · α_w, so that entry is
      (Σ_k σ(x(p, s, k)) · σ(w(n, k))) · (α_x · α_w) + b(n),
  which is `SignLayer.layer x w b (p, s, n)` by the commutativity of the product of extended reals — a law that holds
  at the infinities too, so the finiteness of the inputs is never used.
-/
import proofs.«148123_j66151086293456_1_alg».proof.Proof.Gen.KernelIdeal.Frame
import proofs.«148123_j66151086293456_1_alg».proof.Proof.OutputMatrix
import proofs.«148123_j66151086293456_1_alg».proof.Proof.EntryArrays
import proofs.«148123_j66151086293456_1_alg».proof.Proof.LibRows
import Idealize.ShloMosaic.Lib.ValueLayout
import Idealize.ShloMosaic.Lib.StableHlo.Run

noncomputable section

open scoped BigOperators

namespace Cert.KernelIdeal.Layer

open Cert.KernelIdeal Cert.KernelIdeal.Gen Idealize.ShloMosaic Idealize.ShloMosaic.TcCoe Idealize.SL.Sem
open Idealize.ShloMosaic.StableHlo Idealize.ShloMosaic.ValueIdx Cert.SignLayer Cert.KernelIdeal.Matrix Cert.KernelIdeal.Entry

/-- The output matrix of the re-laid operands, re-laid back, is the layer. -/
theorem relaid_matrix_is_layer (x : FVec Ideal S4x2048x4096 .f32) (w : FVec Ideal S4096x4096 .f32)
    (b : FVec Ideal S4096 .f32) (sc : S1x1.Idx → EReal) (hsc : sc (ix2 (0 : Fin 1) (0 : Fin 1)) = scale x w) :
    shapeCast S4x2048x4096
        (matrixOut sc (shapeCast S8192x4096 x shapeCasts_S4x2048x4096_S8192x4096) w
          (shapeCast S1x4096 b shapeCasts_S4096_S1x4096))
        shapeCasts_S8192x4096_S4x2048x4096
      = layer x w b := by
  funext i
  obtain ⟨p, s, n, rfl⟩ : ∃ (p : Fin 4) (s : Fin 2048) (n : Fin 4096), i = ix3 p s n := ⟨i 0, i 1, i 2, eq_ix3 i⟩
  have hr : p.val * 2048 + s.val < 8192 := by have := p.isLt; have := s.isLt; omega
  refine (Cert.LibRows.unflatten_rows_apply _ _ p s n ⟨p.val * 2048 + s.val, hr⟩ rfl).trans ?_
  unfold matrixOut layer signDot
  rw [hsc, mul_comm (scale x w)]
  refine congrArg₂ (· + ·) (congrArg₂ (· * ·) (Finset.sum_congr rfl fun k _ => ?_) rfl) ?_
  · refine congrArg₂ (· * ·) (congrArg sgn ?_) rfl
    exact Cert.LibRows.flatten_rows_apply x _ p s k ⟨p.val * 2048 + s.val, hr⟩ rfl
  · exact shapeCast_a_1a_apply b _ (0 : Fin 1) n

variable (m : (ℓ : Loc nD τ sig) → Buf (Elt Ideal) ℓ)

/-- THE RESULT ARRAY after the line that follows the call is the layer of the three arguments. -/
theorem result_array (c : Dev nD) :
    Pipeline.afterTail₀ cfgs (dats m) 0 (V0 m) [hostOps1] c main_v11
      = layer (m ((c : Thread nD τ).loc main_arg0)) (m ((c : Thread nD τ).loc main_arg1))
          (m ((c : Thread nD τ).loc main_arg2)) := by
  have e : Pipeline.afterTail₀ cfgs (dats m) 0 (V0 m) [hostOps1] c main_v11
      = shapeCast S4x2048x4096 ((dats m 0 c).arrAt 4 cfg0.N) shapeCasts_S8192x4096_S4x2048x4096 := by
    unfold Pipeline.afterTail₀
    show StableHlo.after hostOps1 _ (Proc.devRef .tc main_v11) = _
    after_results
    rw [Pipeline.withArrays_arr spec0 launch0.win.arr_inj c _ _ 4]
    rfl
  rw [e, final, flat_x, bias_row, V_main_arg1]
  exact relaid_matrix_is_layer _ _ _ _ (scale_cell m c _)

/-- THE KERNEL PROGRAM'S RUN: every weakly fair execution terminates with the result array at the layer of the argument
    arrays, and the argument arrays as they were. -/
theorem run (ρ : Dev nD → PrngReg) :
    θ_run defs (onTc (τ := τ) (main (F := Ideal))) ⟨m, fun _ => 0, ρ⟩ (fun r => ∀ c : Dev nD,
      r.2.mem ((c.tc : Thread nD τ).loc main_v11)
        = layer (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v11 (Pipeline.mem_restRefs_of main_v11 (by decide) (by decide))).trans (result_array m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.KernelIdeal.Layer

end
-- ==== Proof.lean ====
/-
  A sign-binarised linear layer: the tiled kernel and the plain reference compute the same array over the extended reals.

  Both programs take x : [4, 2048, 4096], w : [4096, 4096] and b : [4096] and return, at (p, s, n),
      (mean|x| · mean|w|) · Σ_{k < 4096} σ(x(p, s, k)) · σ(w(n, k)) + b(n),        σ(v) = 1 if v ≥ 0, else −1,
  the function `SignLayer.layer`. The reference computes it as written. The kernel program flattens x to [8192, 4096],
  computes the product of the two means on the host into one cell, runs a 16 × 16 grid whose point (i, j) forms the
  512 × 256 block  (σ(x-rows) · σ(w-rows)ᵀ) · cell + bias-piece  from 512 rows of x and 256 rows of w, and re-lays the
  [8192, 4096] output as [4, 2048, 4096]. Read as extended reals the two differ only by

    * the order of the entries in the sum behind mean|x| (the flattened x lists the same 2^25 entries), and
    * the order of the two factors, (Σ …) · scale against scale · (Σ …),

  and sums and products of extended reals are commutative at the infinities too, so the precondition that the inputs
  are finite is not used. The narrowing of the signs to a 16-bit format before the product changes nothing: a change
  of float format is the identity on extended reals (and ±1 are representable anyway). The idealized kernel is the
  kernel's own text read over the extended reals, no operation replaced, so that conjunct is `True`.

  The modules: SignLayer (the function and the re-laid-sum law), ReferenceLayer (the reference's result is it),
  BlockProduct (one grid point's block, entry by entry), EntryArrays (what the call finds in its operands),
  OutputMatrix (the blocks tile the output matrix), KernelLayer (the line after the call, and the kernel's run).
-/
import proofs.«148123_j66151086293456_1_alg».proof.Defs
import proofs.«148123_j66151086293456_1_alg».proof.Proof.Gen.Kernel
import proofs.«148123_j66151086293456_1_alg».proof.Proof.Gen.Kernel.Skeleton
import proofs.«148123_j66151086293456_1_alg».proof.Proof.Gen.Kernel.Launch
import proofs.«148123_j66151086293456_1_alg».proof.Proof.Gen.Kernel.Points
import proofs.«148123_j66151086293456_1_alg».proof.Proof.Gen.Kernel.Frame
import proofs.«148123_j66151086293456_1_alg».proof.Proof.Gen.KernelIdeal
import proofs.«148123_j66151086293456_1_alg».proof.Proof.Gen.KernelIdeal.Skeleton
import proofs.«148123_j66151086293456_1_alg».proof.Proof.Gen.KernelIdeal.Launch
import proofs.«148123_j66151086293456_1_alg».proof.Proof.Gen.KernelIdeal.Points
import proofs.«148123_j66151086293456_1_alg».proof.Proof.Gen.KernelIdeal.Frame
import proofs.«148123_j66151086293456_1_alg».proof.Proof.Gen.ReferenceIdeal
import proofs.«148123_j66151086293456_1_alg».proof.Proof.Gen.Pre_finite_inputs
import proofs.«148123_j66151086293456_1_alg».proof.Proof.Gen.ReferenceIdeal.Run
import proofs.«148123_j66151086293456_1_alg».proof.Proof.Gen.ReferenceIdeal.Read
import proofs.«148123_j66151086293456_1_alg».proof.Proof.ReferenceLayer
import proofs.«148123_j66151086293456_1_alg».proof.Proof.KernelLayer
import Idealize.ShloMosaic.Adequacy
import Idealize.ShloMosaic.Init

noncomputable section

namespace Cert.Proof

open Idealize.ShloMosaic Idealize.SL.Sem

/-- The kernel program as printed runs, faults nowhere and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- Both idealized programs end with their result array at `layer` of the arguments, which agree. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.Layer.result_is_layer, (hagree c).1,
    (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
